-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S16384x8 : Shape := ⟨2, ![16384, 8]⟩
abbrev S1x8 : Shape := ⟨2, ![1, 8]⟩
abbrev S8x4096 : Shape := ⟨2, ![8, 4096]⟩
abbrev S1x4096 : Shape := ⟨2, ![1, 4096]⟩
abbrev S4096x1024 : Shape := ⟨2, ![4096, 1024]⟩
abbrev S1x1024 : Shape := ⟨2, ![1, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16384x1024, .f32⟩
  | .hbm, ⟨7, _⟩ => ⟨S16384x8, .f32⟩
  | .hbm, ⟨8, _⟩ => ⟨S1x8, .f32⟩
  | .hbm, ⟨9, _⟩ => ⟨S8x4096, .f32⟩
  | .hbm, ⟨10, _⟩ => ⟨S8x4096, .bf16⟩
  | .hbm, ⟨11, _⟩ => ⟨S1x4096, .f32⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S16384x1024, .f32⟩
  | .hbm, ⟨16, _⟩ => ⟨S8x2048x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x4096, .bf16⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  slices_S16384x1024_S16384x8_0_0 : S16384x1024.Slices ![0, 0] S16384x8
  shapeCasts_S8_S1x8 : S8.ShapeCasts S1x8
  transposes_S4096x8_S8x4096_1_0 : S4096x8.Transposes [1, 0] S8x4096
  bitsLt_bf16_f32 : FTy.bits .bf16 < FTy.bits .f32
  shapeCasts_S4096_S1x4096 : S4096.ShapeCasts S1x4096
  transposes_S1024x4096_S4096x1024_1_0 : S1024x4096.Transposes [1, 0] S4096x1024
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S8x2048x1024 : S16384x1024.ShapeCasts S8x2048x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S_ : Shape := ⟨0, ![]⟩
abbrev S1x1x8 : Shape := ⟨3, ![1, 1, 8]⟩
abbrev S8x2048x4096 : Shape := ⟨3, ![8, 2048, 4096]⟩
abbrev S1x1x4096 : Shape := ⟨3, ![1, 1, 4096]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S_, .f32⟩
  | .hbm, ⟨8, _⟩ => ⟨S8x2048x8, .f32⟩
  | .hbm, ⟨9, _⟩ => ⟨S8x2048x8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x2048x8, .f32⟩
  | .hbm, ⟨14, _⟩ => ⟨S8x2048x8, .f32⟩
  | .hbm, ⟨15, _⟩ => ⟨S8, .f32⟩
  | .hbm, ⟨16, _⟩ => ⟨S8, .f32⟩
  | .hbm, ⟨17, _⟩ => ⟨S1x1x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S1x1x8, .f32⟩
  | .hbm, ⟨22, _⟩ => ⟨S8x2048x8, .f32⟩
  | .hbm, ⟨23, _⟩ => ⟨S8x2048x8, .f32⟩
  | .hbm, ⟨24, _⟩ => ⟨S8x2048x8, .f32⟩
  | .hbm, ⟨25, _⟩ => ⟨S8x2048x8, .f32⟩
  | .hbm, ⟨26, _⟩ => ⟨S1x1x8, .f32⟩
  | .hbm, ⟨27, _⟩ => ⟨S8x2048x8, .f32⟩
  | .hbm, ⟨28, _⟩ => ⟨S8x2048x8, .f32⟩
  | .hbm, ⟨29, _⟩ => ⟨S8x2048x8, .f32⟩
  | .hbm, ⟨30, _⟩ => ⟨S1x1x8, .f32⟩
  | .hbm, ⟨31, _⟩ => ⟨S8x2048x8, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x4096, .f32⟩
  | .hbm, ⟨37, _⟩ => ⟨S1x1x4096, .f32⟩
  | .hbm, ⟨38, _⟩ => ⟨S8x2048x4096, .f32⟩
  | .hbm, ⟨39, _⟩ => ⟨S8x2048x4096, .f32⟩
  | .hbm, ⟨40, _⟩ => ⟨S_, .f32⟩
  | .hbm, ⟨41, _⟩ => ⟨S8x2048x4096, .f32⟩
  | .hbm, ⟨42, _⟩ => ⟨S8x2048x4096, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_cst : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  slices_S8x2048x1024_S8x2048x8_0_0_0 : S8x2048x1024.Slices ![0, 0, 0] S8x2048x8
  bcast_S_S8x2048x8 : S_.BroadcastsInDim S8x2048x8 (![] : Fin 0 → Fin S8x2048x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x8_S4096x8_S8x2048x4096_2_1_01_0_n_n_wf : DotDims.WF S8x2048x8 S4096x8 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x8_S4096x8_S8x2048x4096_2_1_01_0_n_n : DotDims S8x2048x8 S4096x8 S8x2048x4096 where
  lhsContracting := [2]
  rhsContracting := [1]
  lhsNonContracting := [0, 1]
  rhsNonContracting := [0]
  lhsBatch := []
  rhsBatch := []
  wf := dot_S8x2048x8_S4096x8_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.Spec.lean ====
/-
  The function of the six argument arrays that both programs compute, index by index, on the extended reals.

  A token is a pair (batch `a`, position `s`); its first eight features `x[a, s, 0..7]` are encoding angles, one per
  wire. Wire `k` starts in |0⟩, is rotated by RX(x) and then by RY(θ_k); with half angles hx = x/2, ht = θ_k/2 the
  amplitudes are  α = cos ht · cos hx + i · sin ht · sin hx  and  β = sin ht · cos hx − i · cos ht · sin hx, and the
  measured expectation is ⟨Z⟩ = |α|² − |β|², kept as the four squares (no trigonometric identity is applied).
  The eight expectations feed a two-layer head:
      hidden f  = max (Σ_k ⟨Z⟩_k · W1[f, k] + b1[f], 0)        (4096 units)
      out e     = Σ_f hidden f · W2[e, f] + b2[e]              (1024 features).
  `headAt` states this for one row of a matrix of angles with the weights already laid out for plain products
  (contraction axis first in the second factor), over any number of rows; `G` states it over the argument arrays
  themselves. `headAt_eq_G`: the two agree when the laid-out arrays hold the arguments' entries — the only law between
  the two programs is this re-indexing, which is why no finiteness of the inputs is needed: no sum is re-associated, no
  factor moved across a sum.
-/
import Idealize.ShloMosaic.PureOps.Ideal
import Idealize.ShloMosaic.Lib.ValueIdx

open scoped BigOperators

noncomputable section

namespace Cert.CircuitHead

open Idealize.ShloMosaic Idealize.ShloMosaic.ValueIdx

/-- One half, as the single-precision word both programs carry (never evaluated: the same word on both sides). -/
def half : EReal := Ideal.ofBits .f32 0x3F000000#32

/-- The rectifier's floor, the zero word. -/
def floor0 : EReal := Ideal.ofBits .f32 0x00000000#32

/-- ⟨Z⟩ of one wire after RX(xv) then RY(tv) from |0⟩: (ct·cx)² + (st·sx)² − ((st·cx)² + (ct·sx)²). -/
def expectZ (xv tv : EReal) : EReal :=
  ((Ideal.cos (half * tv) * Ideal.cos (half * xv)) * (Ideal.cos (half * tv) * Ideal.cos (half * xv))
      + (Ideal.sin (half * tv) * Ideal.sin (half * xv)) * (Ideal.sin (half * tv) * Ideal.sin (half * xv)))
    - ((Ideal.sin (half * tv) * Ideal.cos (half * xv)) * (Ideal.sin (half * tv) * Ideal.cos (half * xv))
      + (Ideal.cos (half * tv) * Ideal.sin (half * xv)) * (Ideal.cos (half * tv) * Ideal.sin (half * xv)))

/-- One hidden unit: the rectified affine form of the eight expectations. -/
def hidden (q w : Fin 8 → EReal) (b : EReal) : EReal := max ((∑ k : Fin 8, q k * w k) + b) floor0

/-- One output feature: the affine form of the 4096 hidden units. -/
def outE (h w : Fin 4096 → EReal) (b : EReal) : EReal := (∑ f : Fin 4096, h f * w f) + b

/-- Row `r`, feature `e` of the head over a matrix of angles `xq` (`R` rows, eight wires), the rotation angles as a
    one-row matrix, the first layer as [8, 4096], the second as [4096, 1024], the biases as one-row matrices. -/
def headAt {R : Nat} (xq : (⟨2, ![R, 8]⟩ : Shape).Idx → EReal) (th : (⟨2, ![1, 8]⟩ : Shape).Idx → EReal)
    (w1 : (⟨2, ![8, 4096]⟩ : Shape).Idx → EReal) (b1 : (⟨2, ![1, 4096]⟩ : Shape).Idx → EReal)
    (w2 : (⟨2, ![4096, 1024]⟩ : Shape).Idx → EReal) (b2 : (⟨2, ![1, 1024]⟩ : Shape).Idx → EReal)
    (r : Fin R) (e : Fin 1024) : EReal :=
  outE (fun f => hidden (fun k => expectZ (xq (ix2 r k)) (th (ix2 (0 : Fin 1) k))) (fun k => w1 (ix2 k f)) (b1 (ix2 (0 : Fin 1) f)))
    (fun f => w2 (ix2 f e)) (b2 (ix2 (0 : Fin 1) e))

/-- Wire `k` is feature `k` of a token. -/
def wire (k : Fin 8) : Fin 1024 := ⟨k.val, by omega⟩

/-- Token (a, s), feature e of the head over the argument arrays. -/
def Gat (x : (⟨3, ![8, 2048, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (a : Fin 8) (s : Fin 2048) (e : Fin 1024) : EReal :=
  outE (fun f => hidden (fun k => expectZ (x (ix3 a s (wire k))) (th (ix1 k))) (fun k => W1 (ix2 f k)) (b1 (ix1 f)))
    (fun f => W2 (ix2 e f)) (b2 (ix1 e))

/-- The whole result array as a function of the argument arrays. -/
def G (x : (⟨3, ![8, 2048, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![8, 2048, 1024]⟩ : Shape).Idx → EReal :=
  fun i => Gat x th W1 b1 W2 b2 (i 0) (i 1) (i 2)

theorem G_ix3 (x : (⟨3, ![8, 2048, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (a : Fin 8) (s : Fin 2048) (e : Fin 1024) :
    G x th W1 b1 W2 b2 (ix3 a s e) = Gat x th W1 b1 W2 b2 a s e := rfl

/-- The head over laid-out arrays is the head over the arguments, when row `r` of the angle matrix holds token (a, s)'s
    first eight features and each laid-out array holds the corresponding argument's entries. -/
theorem headAt_eq_Gat {R : Nat} (xq : (⟨2, ![R, 8]⟩ : Shape).Idx → EReal) (th2 : (⟨2, ![1, 8]⟩ : Shape).Idx → EReal)
    (w1 : (⟨2, ![8, 4096]⟩ : Shape).Idx → EReal) (b1r : (⟨2, ![1, 4096]⟩ : Shape).Idx → EReal)
    (w2 : (⟨2, ![4096, 1024]⟩ : Shape).Idx → EReal) (b2r : (⟨2, ![1, 1024]⟩ : Shape).Idx → EReal)
    (x : (⟨3, ![8, 2048, 1024]⟩ : Shape).Idx → EReal) (th : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (r : Fin R) (a : Fin 8) (s : Fin 2048) (e : Fin 1024)
    (hx : ∀ k : Fin 8, xq (ix2 r k) = x (ix3 a s (wire k)))
    (hth : ∀ k : Fin 8, th2 (ix2 (0 : Fin 1) k) = th (ix1 k))
    (hw1 : ∀ (k : Fin 8) (f : Fin 4096), w1 (ix2 k f) = W1 (ix2 f k))
    (hb1 : ∀ f : Fin 4096, b1r (ix2 (0 : Fin 1) f) = b1 (ix1 f))
    (hw2 : ∀ (f : Fin 4096) (e : Fin 1024), w2 (ix2 f e) = W2 (ix2 e f))
    (hb2 : ∀ e : Fin 1024, b2r (ix2 (0 : Fin 1) e) = b2 (ix1 e)) :
    headAt xq th2 w1 b1r w2 b2r r e = Gat x th W1 b1 W2 b2 a s e := by
  unfold headAt Gat
  simp only [hx, hth, hw1, hb1, hw2, hb2]

end Cert.CircuitHead

end
-- ==== Proof.RefValue.lean ====
/-
  The reference program's result, read one operation at a time at an index, is the function `G` of its six
  argument arrays. Three layers: the per-wire expectation (stages 0–27), one hidden unit (stages 28–32: the sum over
  the eight wires, the bias, the rectifier), one output feature (stages 33–36: the sum over the 4096 hidden units and
  the bias). Every product, sum, difference and maximum has its operands in the same order on both sides, so the only
  work is to identify the composed index maps of the slice, the broadcasts and the two contractions with the index
  constructors.
-/
import proofs.«121447_j65481071396057_2_alg».proof.Proof.Gen.ReferenceIdeal.Read
import proofs.«121447_j65481071396057_2_alg».proof.Proof.Spec

open scoped BigOperators

noncomputable section

namespace Cert.CircuitHead.Ref

open Idealize.ShloMosaic Idealize.ShloMosaic.ValueIdx Cert.ReferenceIdeal Cert.ReferenceIdeal.Read

/-! ### The composed index maps -/

/-- The slice keeps the first eight features: feature `k` of the slice is feature `wire k` of the token. -/
theorem idx_slice (a : Fin 8) (s : Fin 2048) (k : Fin 8) :
    idx_main_v0 (ix3 a s k) = ix3 a s (wire k) :=
  funext fun d => Fin.ext (by match d with | ⟨0, _⟩ => rfl | ⟨1, _⟩ => rfl | ⟨2, _⟩ => rfl)

/-- The two broadcasts [8] → [1,1,8] → [8,2048,8] read the rotation angle of wire `k`. -/
theorem idx_theta_c (a : Fin 8) (s : Fin 2048) (k : Fin 8) :
    idx_main_v9 (idx_main_v10 (ix3 a s k)) = ix1 k :=
  funext fun d => Fin.ext (by match d with | ⟨0, _⟩ => rfl)

theorem idx_theta_s (a : Fin 8) (s : Fin 2048) (k : Fin 8) :
    idx_main_v13 (idx_main_v14 (ix3 a s k)) = ix1 k :=
  funext fun d => Fin.ext (by match d with | ⟨0, _⟩ => rfl)

theorem idx_theta_s' (a : Fin 8) (s : Fin 2048) (k : Fin 8) :
    idx_main_v18 (idx_main_v19 (ix3 a s k)) = ix1 k :=
  funext fun d => Fin.ext (by match d with | ⟨0, _⟩ => rfl)

theorem idx_theta_c' (a : Fin 8) (s : Fin 2048) (k : Fin 8) :
    idx_main_v22 (idx_main_v23 (ix3 a s k)) = ix1 k :=
  funext fun d => Fin.ext (by match d with | ⟨0, _⟩ => rfl)

/-- First contraction: token (a, s), hidden unit f, wire k reads expectation (a, s, k) and weight (f, k). -/
theorem lidx_first (a : Fin 8) (s : Fin 2048) (f : Fin 4096) (k : Fin 8) :
    lidx_main_v28 (ix3 a s f) k = ix3 a s k :=
  funext fun d => Fin.ext (by match d with | ⟨0, _⟩ => rfl | ⟨1, _⟩ => rfl | ⟨2, _⟩ => rfl)

theorem ridx_first (a : Fin 8) (s : Fin 2048) (f : Fin 4096) (k : Fin 8) :
    ridx_main_v28 (ix3 a s f) k = ix2 f k :=
  funext fun d => Fin.ext (by match d with | ⟨0, _⟩ => rfl | ⟨1, _⟩ => rfl)

theorem idx_bias1 (a : Fin 8) (s : Fin 2048) (f : Fin 4096) :
    idx_main_v29 (idx_main_v30 (ix3 a s f)) = ix1 f :=
  funext fun d => Fin.ext (by match d with | ⟨0, _⟩ => rfl)

/-- Second contraction: token (a, s), feature e, hidden unit f reads hidden (a, s, f) and weight (e, f). -/
theorem lidx_second (a : Fin 8) (s : Fin 2048) (e : Fin 1024) (f : Fin 4096) :
    lidx_main_v33 (ix3 a s e) f = ix3 a s f :=
  funext fun d => Fin.ext (by match d with | ⟨0, _⟩ => rfl | ⟨1, _⟩ => rfl | ⟨2, _⟩ => rfl)

theorem ridx_second (a : Fin 8) (s : Fin 2048) (e : Fin 1024) (f : Fin 4096) :
    ridx_main_v33 (ix3 a s e) f = ix2 e f :=
  funext fun d => Fin.ext (by match d with | ⟨0, _⟩ => rfl | ⟨1, _⟩ => rfl)

theorem idx_bias2 (a : Fin 8) (s : Fin 2048) (e : Fin 1024) :
    idx_main_v34 (idx_main_v35 (ix3 a s e)) = ix1 e :=
  funext fun d => Fin.ext (by match d with | ⟨0, _⟩ => rfl)

/-! ### The three layers -/

/-- Stage 27 at token (a, s), wire k is the expectation ⟨Z⟩ of that wire. -/
theorem expect_eq (x0 : (⟨S8x2048x1024, .f32⟩ : BufTy).Contents (Elt Ideal)) (x1 : (⟨S8, .f32⟩ : BufTy).Contents (Elt Ideal))
    (a : Fin 8) (s : Fin 2048) (k : Fin 8) :
    val_main_v27 (F := Ideal) x0 x1 (ix3 a s k) = expectZ (x0 (ix3 a s (wire k))) (x1 (ix1 k)) := by
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply, val_main_v4_apply, val_main_v3_apply,
    val_main_v2_apply, val_main_v1_apply, val_main_v0_apply, val_main_cst_apply, val_main_cst_0_apply,
    idx_slice, idx_theta_c, idx_theta_s, idx_theta_s', idx_theta_c',
    Ideal.mulf_def, Ideal.addf_def, Ideal.subf_def, Ideal.hostUnary_cos_def, Ideal.hostUnary_sin_def, Ideal.ofBits_def]
  rfl

/-- Stage 32 at token (a, s), unit f is the hidden unit f of that token. -/
theorem hidden_eq (x0 : (⟨S8x2048x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (a : Fin 8) (s : Fin 2048) (f : Fin 4096) :
    val_main_v32 (F := Ideal) x0 x1 x2 x3 (ix3 a s f)
      = hidden (fun k => expectZ (x0 (ix3 a s (wire k))) (x1 (ix1 k))) (fun k => x2 (ix2 f k)) (x3 (ix1 f)) := by
  simp only [val_main_v32_apply, val_main_v31_apply, val_main_v30_apply, val_main_v29_apply, val_main_v28_apply,
    val_main_call0_v0_apply, val_main_call0_cst_apply, lidx_first, ridx_first, idx_bias1, expect_eq,
    Ideal.addf_def, Ideal.maximumf_def, Ideal.ofBits_def]
  rfl

theorem reference_eq (x0 : (⟨S8x2048x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal)) (x5 : (⟨S1024, .f32⟩ : BufTy).Contents (Elt Ideal)) :
    val_main_v36 (F := Ideal) x0 x1 x2 x3 x4 x5 = Cert.CircuitHead.G x0 x1 x2 x3 x4 x5 := by
  funext i
  obtain ⟨a, s, e, rfl⟩ : ∃ (a : Fin 8) (s : Fin 2048) (e : Fin 1024), i = ix3 a s e := ⟨i 0, i 1, i 2, eq_ix3 i⟩
  rw [Cert.CircuitHead.G_ix3]
  simp only [val_main_v36_apply, val_main_v35_apply, val_main_v34_apply, val_main_v33_apply,
    lidx_second, ridx_second, idx_bias2, hidden_eq, Ideal.addf_def]
  rfl

end Cert.CircuitHead.Ref

end
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.Arrays.lean ====
/-
  The six arrays the region stages, as functions of the argument arrays.

  Before the region the host lays the arguments out for plain matrix products: the tokens [8, 2048, 1024] are flattened
  to rows [16384, 1024] (row a·2048 + s is token (a, s)) and the first eight columns kept; the rotation angles and the two
  biases become one-row matrices; the two weight matrices are transposed (and rounded to a narrower format, which on the
  extended reals changes nothing). Each lemma reads one staged array at an index as an entry of an argument array.
-/
import proofs.«121447_j65481071396057_2_alg».proof.Proof.Gen.KernelIdeal.Frame
import proofs.«121447_j65481071396057_2_alg».proof.Proof.Spec
import proofs.«121447_j65481071396057_2_alg».proof.Proof.LibLayout3
import Idealize.ShloMosaic.Lib.ValueLayout
import Idealize.ShloMosaic.Lib.Pipeline.Value
import Idealize.ShloMosaic.Lib.StableHlo.Run

noncomputable section

namespace Cert.CircuitHead.Kernel

open Idealize.ShloMosaic Idealize.ShloMosaic.TcCoe Idealize.ShloMosaic.ValueIdx Idealize.SL.Sem Cert.KernelIdeal Cert.KernelIdeal.Gen
open Cert.CircuitHead

variable (m : (ℓ : Loc nD τ sig) → Buf (Elt Ideal) ℓ)

/-! ## The staged arrays as terms of the arguments -/

theorem V_angles (c : Dev nD) : (V m c main_v1 : S16384x8.Idx → EReal)
    = extractStridedSlice S16384x8 ![0, 0] (shapeCast S16384x1024 (m ((c.tc : Thread nD τ).loc main_arg0)) shapeCasts_S8x2048x1024_S16384x1024) slices_S16384x1024_S16384x8_0_0 := by
  show StableHlo.after hostOps0 (fun b => m (c, b)) (Proc.devRef .tc main_v1) = _
  after_results
  rfl

theorem V_theta (c : Dev nD) : (V m c main_v2 : S1x8.Idx → EReal)
    = shapeCast S1x8 (m ((c.tc : Thread nD τ).loc main_arg1)) shapeCasts_S8_S1x8 := by
  show StableHlo.after hostOps0 (fun b => m (c, b)) (Proc.devRef .tc main_v2) = _
  after_results
  rfl

theorem V_w1 (c : Dev nD) : (V m c main_v4 : S8x4096.Idx → EReal)
    = (truncf (F := Ideal) .bf16 (transpose S8x4096 [1, 0] (m ((c.tc : Thread nD τ).loc main_arg2) : S4096x8.Idx → EReal) transposes_S4096x8_S8x4096_1_0 : FVec Ideal S8x4096 .f32) bitsLt_bf16_f32 : S8x4096.Idx → EReal) := by
  show StableHlo.after hostOps0 (fun b => m (c, b)) (Proc.devRef .tc main_v4) = _
  after_results

theorem V_b1 (c : Dev nD) : (V m c main_v5 : S1x4096.Idx → EReal)
    = shapeCast S1x4096 (m ((c.tc : Thread nD τ).loc main_arg3)) shapeCasts_S4096_S1x4096 := by
  show StableHlo.after hostOps0 (fun b => m (c, b)) (Proc.devRef .tc main_v5) = _
  after_results
  rfl

theorem V_w2 (c : Dev nD) : (V m c main_v7 : S4096x1024.Idx → EReal)
    = (truncf (F := Ideal) .bf16 (transpose S4096x1024 [1, 0] (m ((c.tc : Thread nD τ).loc main_arg4) : S1024x4096.Idx → EReal) transposes_S1024x4096_S4096x1024_1_0 : FVec Ideal S4096x1024 .f32) bitsLt_bf16_f32 : S4096x1024.Idx → EReal) := by
  show StableHlo.after hostOps0 (fun b => m (c, b)) (Proc.devRef .tc main_v7) = _
  after_results

theorem V_b2 (c : Dev nD) : (V m c main_v8 : S1x1024.Idx → EReal)
    = shapeCast S1x1024 (m ((c.tc : Thread nD τ).loc main_arg5)) shapeCasts_S1024_S1x1024 := by
  show StableHlo.after hostOps0 (fun b => m (c, b)) (Proc.devRef .tc main_v8) = _
  after_results
  rfl

/-! ## Read at an index -/

/-- Row a·2048 + s of the angle matrix holds token (a, s)'s first eight features. -/
theorem V_angles_apply (c : Dev nD) (r : Fin 16384) (k : Fin 8) (a : Fin 8) (s : Fin 2048) (hr : r.val = a.val * 2048 + s.val) :
    (V m c main_v1 : S16384x8.Idx → EReal) (ix2 r k)
      = (m ((c.tc : Thread nD τ).loc main_arg0) : S8x2048x1024.Idx → EReal) (ix3 a s (wire k)) := by
  rw [V_angles]
  refine (extractStridedSlice_apply ![0, 0] _ slices_S16384x1024_S16384x8_0_0 (ix2 r k) (ix2 r (wire k)) (fun d => ?_)).trans ?_
  · match d with
    | ⟨0, _⟩ => show r.val = 0 + r.val; omega
    | ⟨1, _⟩ => show k.val = 0 + k.val; omega
  · exact Cert.Layout3.shapeCast_abk_mk_apply _ shapeCasts_S8x2048x1024_S16384x1024 a s (wire k) r hr

theorem V_theta_apply (c : Dev nD) (k : Fin 8) :
    (V m c main_v2 : S1x8.Idx → EReal) (ix2 (0 : Fin 1) k) = (m ((c.tc : Thread nD τ).loc main_arg1) : S8.Idx → EReal) (ix1 k) := by
  rw [V_theta]
  exact shapeCast_a_1a_apply _ shapeCasts_S8_S1x8 (0 : Fin 1) k

theorem V_w1_apply (c : Dev nD) (k : Fin 8) (f : Fin 4096) :
    (V m c main_v4 : S8x4096.Idx → EReal) (ix2 k f) = (m ((c.tc : Thread nD τ).loc main_arg2) : S4096x8.Idx → EReal) (ix2 f k) := by
  rw [V_w1]
  exact transpose_ix2_apply _ transposes_S4096x8_S8x4096_1_0 k f

theorem V_b1_apply (c : Dev nD) (f : Fin 4096) :
    (V m c main_v5 : S1x4096.Idx → EReal) (ix2 (0 : Fin 1) f) = (m ((c.tc : Thread nD τ).loc main_arg3) : S4096.Idx → EReal) (ix1 f) := by
  rw [V_b1]
  exact shapeCast_a_1a_apply _ shapeCasts_S4096_S1x4096 (0 : Fin 1) f

theorem V_w2_apply (c : Dev nD) (f : Fin 4096) (e : Fin 1024) :
    (V m c main_v7 : S4096x1024.Idx → EReal) (ix2 f e) = (m ((c.tc : Thread nD τ).loc main_arg4) : S1024x4096.Idx → EReal) (ix2 e f) := by
  rw [V_w2]
  exact transpose_ix2_apply _ transposes_S1024x4096_S4096x1024_1_0 f e

theorem V_b2_apply (c : Dev nD) (e : Fin 1024) :
    (V m c main_v8 : S1x1024.Idx → EReal) (ix2 (0 : Fin 1) e) = (m ((c.tc : Thread nD τ).loc main_arg5) : S1024.Idx → EReal) (ix1 e) := by
  rw [V_b2]
  exact shapeCast_a_1a_apply _ shapeCasts_S1024_S1x1024 (0 : Fin 1) e

end Cert.CircuitHead.Kernel

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.BlockValue.lean ====
/-
  What one grid point's body computes, at an index.

  The body's arithmetic is two pure terms: the second matrix product (over the rectified first layer of the eight
  expectations) and the final sum with the broadcast output bias. Read at row p and feature e, the first is
  Σ_f hidden(p, f) · w2(f, e) and the second adds b2(e): the head of the specification at that row, with every
  product, sum, difference and maximum in the same operand order. The reading goes layer by layer: the 512×8 block of
  expectations, the 512×4096 block of hidden units, then the result.
-/
import proofs.«121447_j65481071396057_2_alg».proof.Proof.Gen.KernelIdeal.Skeleton
import proofs.«121447_j65481071396057_2_alg».proof.Proof.Spec
import proofs.«121447_j65481071396057_2_alg».proof.Proof.LibMatmul
import Idealize.ShloMosaic.Lib.ValueLayout
import Idealize.ShloMosaic.Lib.Pipeline.Value
import Idealize.ShloMosaic.PureOps.Ideal.Laws
open scoped BigOperators
noncomputable section
namespace Cert.CircuitHead.Block
open Idealize.ShloMosaic Idealize.ShloMosaic.ValueIdx Cert.KernelIdeal Cert.KernelIdeal.Gen

/-- The two contraction records are the plain product's. -/
theorem dot1_eq : dot_S512x8_S8x4096_S512x4096_1_0_0_1_n_n = DotDims.plain 512 8 4096 := rfl
theorem dot2_eq : dot_S512x4096_S4096x1024_S512x1024_1_0_0_1_n_n = DotDims.plain 512 4096 1024 := rfl

/-- The 512×8 block of expectations: half angles, their cosines and sines, the four squared products, and the
    difference of the two sums of squares. -/
def zvec (x0 : FVec Ideal S512x8 .f32) (x1 : FVec Ideal S1x8 .f32) : FVec Ideal S512x8 .f32 :=
  have v1 : FVec Ideal S512x8 .f32 := shapeCast S512x8 x0 shapeCasts_S512x8_S512x8
  have cst : Ideal .f32 := Scalar.ofBits .f32 0x3F000000#32
  have v2 : FVec Ideal S512x8 .f32 := broadcast S512x8 cst
  have v3 : FVec Ideal S512x8 .f32 := mulf v2 v1
  have v5 : FVec Ideal S1x8 .f32 := shapeCast S1x8 x1 shapeCasts_S1x8_S1x8
  have cst_3 : Ideal .f32 := Scalar.ofBits .f32 0x3F000000#32
  have v6 : FVec Ideal S1x8 .f32 := broadcast S1x8 cst_3
  have v7 : FVec Ideal S1x8 .f32 := mulf v6 v5
  have v8 : FVec Ideal S512x8 .f32 := cos v3
  have v9 : FVec Ideal S512x8 .f32 := sin v3
  have v10 : FVec Ideal S1x8 .f32 := cos v7
  have v11 : FVec Ideal S1x8 .f32 := sin v7
  have v12 : FVec Ideal S512x8 .f32 := broadcastTo S512x8 v10 broadcasts_S1x8_S512x8
  have v13 : FVec Ideal S512x8 .f32 := mulf v12 v8
  have v14 : FVec Ideal S512x8 .f32 := mulf v13 v13
  have v15 : FVec Ideal S512x8 .f32 := broadcastTo S512x8 v11 broadcasts_S1x8_S512x8
  have v16 : FVec Ideal S512x8 .f32 := mulf v15 v9
  have v17 : FVec Ideal S512x8 .f32 := mulf v16 v16
  have v18 : FVec Ideal S512x8 .f32 := addf v14 v17
  have v19 : FVec Ideal S512x8 .f32 := broadcastTo S512x8 v11 broadcasts_S1x8_S512x8
  have v20 : FVec Ideal S512x8 .f32 := mulf v19 v8
  have v21 : FVec Ideal S512x8 .f32 := mulf v20 v20
  have v22 : FVec Ideal S512x8 .f32 := broadcastTo S512x8 v10 broadcasts_S1x8_S512x8
  have v23 : FVec Ideal S512x8 .f32 := mulf v22 v9
  have v24 : FVec Ideal S512x8 .f32 := mulf v23 v23
  have v25 : FVec Ideal S512x8 .f32 := addf v21 v24
  subf v18 v25

/-- The 512×4096 block of hidden units: the first product into the zero accumulator, plus the broadcast bias,
    rectified against the broadcast zero word. -/
def hvec (x0 : FVec Ideal S512x8 .f32) (x1 : FVec Ideal S1x8 .f32) (x2 : FVec Ideal S8x4096 .bf16)
    (x3 : FVec Ideal S1x4096 .f32) : FVec Ideal S512x4096 .f32 :=
  have v27 : FVec Ideal S512x8 .bf16 := truncf .bf16 (zvec x0 x1) bitsLt_bf16_f32
  have v29 : FVec Ideal S8x4096 .bf16 := shapeCast S8x4096 x2 shapeCasts_S8x4096_S8x4096
  have cst_6 : FVec Ideal S512x4096 .f32 := constant S512x4096 .f32 0x00000000#32
  have v30 : FVec Ideal S512x4096 .f32 := matmul dot_S512x8_S8x4096_S512x4096_1_0_0_1_n_n none v27 v29 cst_6
  have v32 : FVec Ideal S1x4096 .f32 := shapeCast S1x4096 x3 shapeCasts_S1x4096_S1x4096
  have v33 : FVec Ideal S512x4096 .f32 := broadcastTo S512x4096 v32 broadcasts_S1x4096_S512x4096
  have v34 : FVec Ideal S512x4096 .f32 := addf v30 v33
  have cst_9 : Ideal .f32 := Scalar.ofBits .f32 0x00000000#32
  have v35 : FVec Ideal S512x4096 .f32 := broadcast S512x4096 cst_9
  maximumf v34 v35

/-- The second product is the plain product of the hidden block with the second-layer weights. -/
theorem pay2_eq (x0 : FVec Ideal S512x8 .f32) (x1 : FVec Ideal S1x8 .f32) (x2 : FVec Ideal S8x4096 .bf16)
    (x3 : FVec Ideal S1x4096 .f32) (x4 : FVec Ideal S4096x1024 .bf16) :
    k0_pay2 (F := Ideal) x0 x1 x2 x3 x4
      = matmul (F := Ideal) (DotDims.plain 512 4096 1024) none (truncf .bf16 (hvec x0 x1 x2 x3) bitsLt_bf16_f32)
          (shapeCast S4096x1024 x4 shapeCasts_S4096x1024_S4096x1024) (constant S512x1024 .f32 0x00000000#32) := rfl

/-- The vector cosine and sine at an index are the extended reals' cosine and sine of the element. -/
theorem cosv_apply {s : Shape} {φ : FTy} (v : FVec Ideal s φ) (i : s.Idx) : cos v i = Ideal.cos (v i) := rfl
theorem sinv_apply {s : Shape} {φ : FTy} (v : FVec Ideal s φ) (i : s.Idx) : sin v i = Ideal.sin (v i) := rfl

/-- A one-row array broadcast over the rows reads its one row, at the three widths met here. -/
theorem bcast8 (v : FVec Ideal S1x8 .f32) (p : Fin 512) (k : Fin 8) :
    broadcastTo S512x8 v broadcasts_S1x8_S512x8 (ix2 p k) = v (ix2 (0 : Fin 1) k) :=
  broadcastTo_1b_ab_apply v _ p k
theorem bcast4096 (v : FVec Ideal S1x4096 .f32) (p : Fin 512) (f : Fin 4096) :
    broadcastTo S512x4096 v broadcasts_S1x4096_S512x4096 (ix2 p f) = v (ix2 (0 : Fin 1) f) :=
  broadcastTo_1b_ab_apply v _ p f
theorem bcast1024 (v : FVec Ideal S1x1024 .f32) (p : Fin 512) (e : Fin 1024) :
    broadcastTo S512x1024 v broadcasts_S1x1024_S512x1024 (ix2 p e) = v (ix2 (0 : Fin 1) e) :=
  broadcastTo_1b_ab_apply v _ p e

/-- The two products into the zero accumulator, at an index: the sum over the contracted axis. -/
theorem mm1_apply (l : FVec Ideal S512x8 .bf16) (r : FVec Ideal S8x4096 .bf16) (p : Fin 512) (f : Fin 4096) :
    matmul (F := Ideal) dot_S512x8_S8x4096_S512x4096_1_0_0_1_n_n none l r (constant S512x4096 .f32 0x00000000#32) (ix2 p f)
      = ∑ k : Fin 8, l (ix2 p k) * r (ix2 k f) :=
  Cert.MatOps.matmul_plain_zero_apply none l r p f
theorem mm2_apply (l : FVec Ideal S512x4096 .bf16) (r : FVec Ideal S4096x1024 .bf16) (p : Fin 512) (e : Fin 1024) :
    matmul (F := Ideal) dot_S512x4096_S4096x1024_S512x1024_1_0_0_1_n_n none l r (constant S512x1024 .f32 0x00000000#32) (ix2 p e)
      = ∑ f : Fin 4096, l (ix2 p f) * r (ix2 f e) :=
  Cert.MatOps.matmul_plain_zero_apply none l r p e

/-- One entry of the block of expectations. -/
theorem zvec_apply (x0 : FVec Ideal S512x8 .f32) (x1 : FVec Ideal S1x8 .f32) (p : Fin 512) (k : Fin 8) :
    zvec x0 x1 (ix2 p k) = expectZ (x0 (ix2 p k)) (x1 (ix2 (0 : Fin 1) k)) := by
  unfold zvec expectZ half
  simp only [subf_apply, addf_apply, mulf_apply, cosv_apply, sinv_apply, broadcast_apply, shapeCast_self, bcast8,
    Ideal.ofBits_def]

/-- One entry of the block of hidden units. -/
theorem hvec_apply (x0 : FVec Ideal S512x8 .f32) (x1 : FVec Ideal S1x8 .f32) (x2 : FVec Ideal S8x4096 .bf16)
    (x3 : FVec Ideal S1x4096 .f32) (p : Fin 512) (f : Fin 4096) :
    hvec x0 x1 x2 x3 (ix2 p f)
      = hidden (fun k => expectZ (x0 (ix2 p k)) (x1 (ix2 (0 : Fin 1) k))) (fun k => x2 (ix2 k f)) (x3 (ix2 (0 : Fin 1) f)) := by
  unfold hvec hidden floor0
  simp only [maximumf_apply, addf_apply, broadcast_apply, bcast4096, shapeCast_self, mm1_apply, truncf_apply, zvec_apply,
    Ideal.ofBits_def]

/-- One entry of the second product. -/
theorem pay2_apply (x0 : FVec Ideal S512x8 .f32) (x1 : FVec Ideal S1x8 .f32) (x2 : FVec Ideal S8x4096 .bf16)
    (x3 : FVec Ideal S1x4096 .f32) (x4 : FVec Ideal S4096x1024 .bf16) (p : Fin 512) (e : Fin 1024) :
    k0_pay2 (F := Ideal) x0 x1 x2 x3 x4 (ix2 p e) = ∑ f : Fin 4096, hvec x0 x1 x2 x3 (ix2 p f) * x4 (ix2 f e) := by
  refine (congrFun (pay2_eq x0 x1 x2 x3 x4) (ix2 p e)).trans ?_
  refine (mm2_apply _ _ p e).trans ?_
  simp only [truncf_apply, shapeCast_self]

theorem payload_apply (x0 : Vec Ideal S512x8 .f32) (x1 : Vec Ideal S1x8 .f32) (x2 : Vec Ideal S8x4096 .bf16) (x3 : Vec Ideal S1x4096 .f32)
    (x4 : Vec Ideal S4096x1024 .bf16) (x5 : Vec Ideal S1x1024 .f32) (p : Fin 512) (e : Fin 1024) :
    k0_pay1 (F := Ideal) (k0_pay2 (F := Ideal) x0 x1 x2 x3 x4) x5 (ix2 p e) = Cert.CircuitHead.headAt x0 x1 x2 x3 x4 x5 p e := by
  unfold k0_pay1 headAt outE
  simp only [addf_apply, bcast1024, shapeCast_self, pay2_apply, hvec_apply]

end Cert.CircuitHead.Block
end
-- ==== Proof.Final.lean ====
/-
  From one grid point's block to the whole result.

  The region's grid has 32 points; point t stages rows 512·t … 512·t + 511 of the angle matrix and of the output matrix
  [16384, 1024], and the whole of every other array. So what point t writes back is rows 512·t … of ONE function of the
  argument arrays — row r of it is the head of token (r / 2048, r % 2048) — and the 32 blocks tile the output matrix.
  After the region the host splits the rows back into (batch, position): entry (a, s, e) of the result is row
  a·2048 + s, feature e of the matrix, which is the head of token (a, s).
-/
import proofs.«121447_j65481071396057_2_alg».proof.Proof.Gen.KernelIdeal.Frame
import proofs.«121447_j65481071396057_2_alg».proof.Proof.Spec
import proofs.«121447_j65481071396057_2_alg».proof.Proof.Arrays
import proofs.«121447_j65481071396057_2_alg».proof.Proof.BlockValue
import proofs.«121447_j65481071396057_2_alg».proof.Proof.LibLayout3
import Idealize.ShloMosaic.Lib.Pipeline.Value
import Idealize.ShloMosaic.Lib.StableHlo.Run

set_option maxRecDepth 16384

noncomputable section

namespace Cert.CircuitHead.Kernel

open Idealize.ShloMosaic Idealize.ShloMosaic.TcCoe Idealize.ShloMosaic.ValueIdx Idealize.SL.Sem Cert.KernelIdeal Cert.KernelIdeal.Gen
open Idealize.ShloMosaic.Pipeline (Dat)
open Cert.CircuitHead

variable (m : (ℓ : Loc nD τ sig) → Buf (Elt Ideal) ℓ) (ρ : Dev nD → PrngReg)

/-! ## The body's store is its payload -/

theorem zero_offsets : (![0, 0] : Fin 2 → Nat) = fun _ => 0 := funext fun a => by fin_cases a <;> rfl

/-- The output block after the body: its one store covers the block, and each load reads a whole staged block. -/
theorem out_eq (x0 : Vec Ideal S512x8 .f32) (x1 : Vec Ideal S1x8 .f32) (x2 : Vec Ideal S8x4096 .bf16) (x3 : Vec Ideal S1x4096 .f32)
    (x4 : Vec Ideal S4096x1024 .bf16) (x5 : Vec Ideal S1x1024 .f32) :
    out0_6 (F := Ideal) x0 x1 x2 x3 x4 x5 = k0_pay1 (F := Ideal) (k0_pay2 (F := Ideal) x0 x1 x2 x3 x4) x5 := by
  unfold out0_6
  rw [View.canon_unit_zero zero_offsets]
  simp only [View.ld_unit_zero (S := S512x8) zero_offsets, View.ld_unit_zero (S := S1x8) zero_offsets,
    View.ld_unit_zero (S := S8x4096) zero_offsets, View.ld_unit_zero (S := S1x4096) zero_offsets,
    View.ld_unit_zero (S := S4096x1024) zero_offsets, View.ld_unit_zero (S := S1x1024) zero_offsets]

/-! ## Where each point's blocks sit -/

/-- Decided over the 32 points: the angle block moves with the output block along the rows; every other block index is 0. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 31 :=
  (by decide +kernel : ∀ t : Fin grid0.N, _)

/-- Every block of rows is some point's. -/
theorem idx_onto : ∀ q : Fin 32, ∃ t : Fin cfg0.N, win0_6.index t = ![q.val, 0] :=
  (by decide +kernel : ∀ q : Fin 32, ∃ t : Fin grid0.N, win0_6.index t = ![q.val, 0])

/-! ## The output matrix as one function of the arguments -/

/-- Row r, feature e of the output matrix: the head of token (r / 2048, r % 2048). -/
def rowsG (x : S8x2048x1024.Idx → EReal) (th : S8.Idx → EReal) (W1 : S4096x8.Idx → EReal) (b1 : S4096.Idx → EReal)
    (W2 : S1024x4096.Idx → EReal) (b2 : S1024.Idx → EReal) : S16384x1024.Idx → EReal := fun i =>
  Gat x th W1 b1 W2 b2 ⟨(i 0).val / 2048, by have h : (i 0).val < 16384 := (i 0).isLt; omega⟩
    ⟨(i 0).val % 2048, Nat.mod_lt _ (by decide)⟩ ⟨(i 1).val, (i 1).isLt⟩

/-- WHAT POINT t WRITES BACK is block t of `rowsG` of the argument arrays. -/
theorem flushed_eq (c : Dev nD) (t : Fin cfg0.N) :
    (dats m 0 c).flushed 6 t = ((cfg0.win 6).blk t).view.read (Elt Ideal)
      (rowsG (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) := by
  show (cfg0.win 6).cut (grid0.coords t) ((dats m 0 c).after 6 t) = _
  rw [after0_6, out_eq]
  obtain ⟨e00, e01, e10, e11, e20, e21, e30, e31, e40, e41, e50, e51, e61, e6le⟩ := idx_facts t
  funext y
  obtain ⟨p, q, rfl⟩ : ∃ (p : Fin 512) (q : Fin 1024), y = ix2 p q := ⟨y 0, y 1, eq_ix2 y⟩
  show k0_pay1 (F := Ideal) (k0_pay2 (F := Ideal) (iblk m c 0 t) (iblk m c 1 t) (iblk m c 2 t) (iblk m c 3 t) (iblk m c 4 t)) (iblk m c 5 t) (ix2 p q)
      = rowsG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (((cfg0.win 6).blk t).view.emb (ix2 p q))
  refine (Block.payload_apply (iblk m c 0 t) (iblk m c 1 t) (iblk m c 2 t) (iblk m c 3 t) (iblk m c 4 t) (iblk m c 5 t) p q).trans ?_
  have hp : p.val < 512 := p.isLt
  have hrow : win0_6.index t (0 : Fin 2) * 512 + p.val < 16384 := by omega
  -- the output block's element (p, q) sits at row 512·t + p, column q of the matrix
  have hemb : ((cfg0.win 6).blk t).view.emb (ix2 p q) = ix2 (⟨win0_6.index t (0 : Fin 2) * 512 + p.val, hrow⟩ : Fin 16384) q := by
    funext a; apply Fin.ext
    match a with
    | ⟨0, _⟩ => show win0_6.index t (0 : Fin 2) * 512 + 1 * p.val = win0_6.index t (0 : Fin 2) * 512 + p.val; omega
    | ⟨1, _⟩ => show win0_6.index t (1 : Fin 2) * 1024 + 1 * q.val = q.val; omega
  rw [hemb]
  show headAt (iblk m c 0 t) (iblk m c 1 t) (iblk m c 2 t) (iblk m c 3 t) (iblk m c 4 t) (iblk m c 5 t) p q
      = Gat (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (⟨(win0_6.index t (0 : Fin 2) * 512 + p.val) / 2048, by omega⟩ : Fin 8)
          (⟨(win0_6.index t (0 : Fin 2) * 512 + p.val) % 2048, Nat.mod_lt _ (by decide)⟩ : Fin 2048) q
  refine headAt_eq_Gat _ _ _ _ _ _ _ _ _ _ _ _ p _ _ q ?_ ?_ ?_ ?_ ?_ ?_
  · -- the angle block's row p is row 512·t + p of the angle matrix
    intro k
    show V m c main_v1 (((cfg0.win 0).blk t).view.emb (ix2 p k)) = _
    have h0 : ((cfg0.win 0).blk t).view.emb (ix2 p k) = ix2 (⟨win0_6.index t (0 : Fin 2) * 512 + p.val, hrow⟩ : Fin 16384) k := by
      funext a; apply Fin.ext
      match a with
      | ⟨0, _⟩ => show win0_0.index t (0 : Fin 2) * 512 + 1 * p.val = win0_6.index t (0 : Fin 2) * 512 + p.val; omega
      | ⟨1, _⟩ => show win0_0.index t (1 : Fin 2) * 8 + 1 * k.val = k.val; omega
    rw [h0]
    exact V_angles_apply m c _ k _ _ (by
      show win0_6.index t (0 : Fin 2) * 512 + p.val
        = (win0_6.index t (0 : Fin 2) * 512 + p.val) / 2048 * 2048 + (win0_6.index t (0 : Fin 2) * 512 + p.val) % 2048
      omega)
  · intro k
    show V m c main_v2 (((cfg0.win 1).blk t).view.emb (ix2 (0 : Fin 1) k)) = _
    have h1 : ((cfg0.win 1).blk t).view.emb (ix2 (0 : Fin 1) k) = ix2 (0 : Fin 1) k := by
      funext a; apply Fin.ext
      match a with
      | ⟨0, _⟩ => show win0_1.index t (0 : Fin 2) * 1 + 1 * 0 = 0; omega
      | ⟨1, _⟩ => show win0_1.index t (1 : Fin 2) * 8 + 1 * k.val = k.val; omega
    rw [h1]
    exact V_theta_apply m c k
  · intro k f
    show V m c main_v4 (((cfg0.win 2).blk t).view.emb (ix2 k f)) = _
    have h2 : ((cfg0.win 2).blk t).view.emb (ix2 k f) = ix2 k f := by
      funext a; apply Fin.ext
      match a with
      | ⟨0, _⟩ => show win0_2.index t (0 : Fin 2) * 8 + 1 * k.val = k.val; omega
      | ⟨1, _⟩ => show win0_2.index t (1 : Fin 2) * 4096 + 1 * f.val = f.val; omega
    rw [h2]
    exact V_w1_apply m c k f
  · intro f
    show V m c main_v5 (((cfg0.win 3).blk t).view.emb (ix2 (0 : Fin 1) f)) = _
    have h3 : ((cfg0.win 3).blk t).view.emb (ix2 (0 : Fin 1) f) = ix2 (0 : Fin 1) f := by
      funext a; apply Fin.ext
      match a with
      | ⟨0, _⟩ => show win0_3.index t (0 : Fin 2) * 1 + 1 * 0 = 0; omega
      | ⟨1, _⟩ => show win0_3.index t (1 : Fin 2) * 4096 + 1 * f.val = f.val; omega
    rw [h3]
    exact V_b1_apply m c f
  · intro f e
    show V m c main_v7 (((cfg0.win 4).blk t).view.emb (ix2 f e)) = _
    have h4 : ((cfg0.win 4).blk t).view.emb (ix2 f e) = ix2 f e := by
      funext a; apply Fin.ext
      match a with
      | ⟨0, _⟩ => show win0_4.index t (0 : Fin 2) * 4096 + 1 * f.val = f.val; omega
      | ⟨1, _⟩ => show win0_4.index t (1 : Fin 2) * 1024 + 1 * e.val = e.val; omega
    rw [h4]
    exact V_w2_apply m c f e
  · intro e
    show V m c main_v8 (((cfg0.win 5).blk t).view.emb (ix2 (0 : Fin 1) e)) = _
    have h5 : ((cfg0.win 5).blk t).view.emb (ix2 (0 : Fin 1) e) = ix2 (0 : Fin 1) e := by
      funext a; apply Fin.ext
      match a with
      | ⟨0, _⟩ => show win0_5.index t (0 : Fin 2) * 1 + 1 * 0 = 0; omega
      | ⟨1, _⟩ => show win0_5.index t (1 : Fin 2) * 1024 + 1 * e.val = e.val; omega
    rw [h5]
    exact V_b2_apply m c e

/-! ## The 32 blocks tile the output matrix -/

/-- An index of the matrix is in point t's block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v9).slice (win0_6.rect t)).set ↔ _
  rw [View.set_slice_whole, Rect.mem_set_unit]
  exact Iff.rfl

/-- Row r lies in the block of point r / 512. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- THE OUTPUT MATRIX after the region is `rowsG` of the argument arrays. -/
theorem matrix_eq (c : Dev nD) : (dats m 0 c).arrAt 6 cfg0.N
    = rowsG (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (dats m 0 c).arrAt_eq_of_cover 6 _ (fun t _ => flushed_eq m c t) covered

/-! ## The rows split back into (batch, position) -/

/-- THE RESULT after the host's closing reshape is `G` of the argument arrays. -/
theorem result_eq (c : Dev nD) : Pipeline.afterTail₀ cfgs (dats m) 0 (V0 m) [hostOps1] c main_v10
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v9)
      = rowsG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
    (Pipeline.withArrays_arr spec0 launch0.win.arr_inj c _ _ 6).trans (matrix_eq m c)
  rw [hw]
  funext i
  obtain ⟨a, s, e, rfl⟩ : ∃ (a : Fin 8) (s : Fin 2048) (e : Fin 1024), i = ix3 a s e := ⟨i 0, i 1, i 2, eq_ix3 i⟩
  rw [G_ix3]
  have hs : s.val < 2048 := s.isLt
  have ha : a.val < 8 := a.isLt
  -- entry (a, s, e) of the result is row a·2048 + s of the matrix
  refine (Cert.Layout3.shapeCast_mk_abk_apply _ shapeCasts_S16384x1024_S8x2048x1024 a s e
    (⟨a.val * 2048 + s.val, by omega⟩ : Fin 16384) rfl).trans ?_
  have hq : (a.val * 2048 + s.val) / 2048 = a.val := by omega
  have hr : (a.val * 2048 + s.val) % 2048 = s.val := by omega
  show Gat _ _ _ _ _ _ (⟨(a.val * 2048 + s.val) / 2048, _⟩ : Fin 8) (⟨(a.val * 2048 + s.val) % 2048, _⟩ : Fin 2048) (⟨e.val, _⟩ : Fin 1024)
      = Gat _ _ _ _ _ _ a s e
  congr 1
  · exact Fin.ext hq
  · exact Fin.ext hr

/-! ## The run, read -/

/-- Every weakly fair execution of the program ends with the result array at `G` of the argument arrays and the
    arguments as launched. -/
theorem run : θ_run defs (onTc (τ := τ) (main (F := Ideal))) ⟨m, fun _ => 0, ρ⟩ fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v10 (Pipeline.mem_restRefs_of main_v10 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c)⟩)
    (run_main m ρ)

end Cert.CircuitHead.Kernel

end
-- ==== Proof.lean ====
/-
  The certificate: a fused kernel that measures eight single-qubit circuits per token and feeds the expectations to a
  two-layer rectified head, against the same computation written with two einsums.

  Both programs compute, for token (a, s) and feature e,
      Σ_f max (Σ_k ⟨Z⟩_k(x[a, s, k], θ_k) · W1[f, k] + b1[f], 0) · W2[e, f] + b2[e],
  with ⟨Z⟩ kept as the four squares (cos(θ/2)cos(x/2))² + (sin(θ/2)sin(x/2))² − ((sin(θ/2)cos(x/2))² + (cos(θ/2)sin(x/2))²)
  and every product, sum, difference and maximum in the same operand order (`Cert.CircuitHead.G`, Proof/Spec.lean). They
  differ only in layout: the kernel flattens the tokens to 16384 rows, keeps eight columns, transposes the two weight
  matrices so that both contractions are plain products, works on 32 blocks of 512 rows, rounds the products' operands to a
  narrower format (the identity on the extended reals), and splits the rows back at the end. On the extended reals
  a product into a zero accumulator and a general contraction are the same finite sum, so the two results agree entry
  by entry for ALL inputs: the precondition is not used.

  The kernel's side: what one point's body computes at an index (Proof/BlockValue.lean), the staged arrays as entries of the
  arguments (Proof/Arrays.lean), the blocks tiling the output and the closing reshape (Proof/Final.lean). The reference's
  side: its operations read at an index, one at a time (Proof/RefValue.lean). The three frames are the programs' runs
  with the results dropped; the idealization rewrote nothing, so `preserves` is trivial.
-/
import proofs.«121447_j65481071396057_2_alg».proof.Defs
import proofs.«121447_j65481071396057_2_alg».proof.Proof.Gen.Kernel
import proofs.«121447_j65481071396057_2_alg».proof.Proof.Gen.Kernel.Frame
import proofs.«121447_j65481071396057_2_alg».proof.Proof.Gen.KernelIdeal
import proofs.«121447_j65481071396057_2_alg».proof.Proof.Gen.KernelIdeal.Frame
import proofs.«121447_j65481071396057_2_alg».proof.Proof.Gen.ReferenceIdeal
import proofs.«121447_j65481071396057_2_alg».proof.Proof.Gen.ReferenceIdeal.Run
import proofs.«121447_j65481071396057_2_alg».proof.Proof.Gen.ReferenceIdeal.Read
import proofs.«121447_j65481071396057_2_alg».proof.Proof.Gen.Pre_finite_inputs
import proofs.«121447_j65481071396057_2_alg».proof.Proof.Spec
import proofs.«121447_j65481071396057_2_alg».proof.Proof.RefValue
import proofs.«121447_j65481071396057_2_alg».proof.Proof.Final

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the same function `G` of arguments that agree. -/
theorem algebraic : Cert.algebraic_KernelIdeal_ReferenceIdeal := by
  intro m ρ m' ρ' _ hagree
  refine ⟨_, Cert.CircuitHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.CircuitHead.Ref.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
